-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x600000 : Shape := ⟨2, ![2, 600000]⟩
abbrev S3x128 : Shape := ⟨2, ![3, 128]⟩
abbrev S128 : Shape := ⟨1, ![128]⟩
abbrev S128x128 : Shape := ⟨2, ![128, 128]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128x128 .f32) (main_arg9 : FVec F S128x128 .f32) (main_arg10 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S100000x3 .f32) (main_arg1 : IVec S2x600000 32) (main_arg2 : FVec F S3x128 .f32) (main_arg3 : FVec F S3x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x128 .f32 := Host.absf main_arg2
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x3 : Shape := ⟨2, ![100000, 3]⟩
abbrev S2x600000 : Shape := ⟨2, ![2, 600000]⟩
abbrev S3x128 : Shape := ⟨2, ![3, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x3 : Shape := ⟨2, ![600000, 3]⟩
abbrev S1x128 : Shape := ⟨2, ![1, 128]⟩
abbrev S100000x128 : Shape := ⟨2, ![100000, 128]⟩
abbrev S4000x3 : Shape := ⟨2, ![4000, 3]⟩
abbrev S4000x128 : Shape := ⟨2, ![4000, 128]⟩
abbrev S600000x128 : Shape := ⟨2, ![600000, 128]⟩

abbrev nBuf : Space → Nat
  | .hbm => 86
  | .vmem => 27
  | .smem => 0
  | _ => 0

abbrev bufTy : (tb : Table) → Fin (tcTables nBuf tb) → BufTy
  | .hbm, ⟨0, _⟩ => ⟨S100000x3, .f32⟩
  | .hbm, ⟨1, _⟩ => ⟨S2x600000, .i32⟩
  | .hbm, ⟨2, _⟩ => ⟨S3x128, .f32⟩
  | .hbm, ⟨3, _⟩ => ⟨S3x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .f32⟩
  | .hbm, ⟨16, _⟩ => ⟨S600000, .f32⟩
  | .hbm, ⟨17, _⟩ => ⟨S_, .f32⟩
  | .hbm, ⟨18, _⟩ => ⟨S100000, .f32⟩
  | .hbm, ⟨19, _⟩ => ⟨S600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S_, .i32⟩
  | .hbm, ⟨36, _⟩ => ⟨S600000, .i32⟩
  | .hbm, ⟨37, _⟩ => ⟨S600000, .i1⟩
  | .hbm, ⟨38, _⟩ => ⟨S_, .i32⟩
  | .hbm, ⟨39, _⟩ => ⟨S600000, .i32⟩
  | .hbm, ⟨40, _⟩ => ⟨S600000, .i32⟩
  | .hbm, ⟨41, _⟩ => ⟨S600000, .i32⟩
  | .hbm, ⟨42, _⟩ => ⟨S600000x1, .i32⟩
  | .hbm, ⟨43, _⟩ => ⟨S600000x3, .f32⟩
  | .hbm, ⟨44, _⟩ => ⟨S_, .f32⟩
  | .hbm, ⟨45, _⟩ => ⟨S100000x3, .f32⟩
  | .hbm, ⟨46, _⟩ => ⟨S600000x1, .i32⟩
  | .hbm, ⟨47, _⟩ => ⟨S100000x3, .f32⟩
  | .hbm, ⟨48, _⟩ => ⟨S100000x3, .f32⟩
  | .hbm, ⟨49, _⟩ => ⟨S100000x3, .f32⟩
  | .hbm, ⟨50, _⟩ => ⟨S1x128, .f32⟩
  | .hbm, ⟨51, _⟩ => ⟨S100000x128, .f32⟩
  | .hbm, ⟨52, _⟩ => ⟨S_, .i32⟩
  | .hbm, ⟨53, _⟩ => ⟨S600000, .i32⟩
  | .hbm, ⟨54, _⟩ => ⟨S600000, .i1⟩
  | .hbm, ⟨55, _⟩ => ⟨S_, .i32⟩
  | .hbm, ⟨56, _⟩ => ⟨S600000, .i32⟩
  | .hbm, ⟨57, _⟩ => ⟨S600000, .i32⟩
  | .hbm, ⟨58, _⟩ => ⟨S600000, .i32⟩
  | .hbm, ⟨59, _⟩ => ⟨S600000x1, .i32⟩
  | .hbm, ⟨60, _⟩ => ⟨S600000x128, .f32⟩
  | .hbm, ⟨61, _⟩ => ⟨S_, .f32⟩
  | .hbm, ⟨62, _⟩ => ⟨S100000x128, .f32⟩
  | .hbm, ⟨63, _⟩ => ⟨S600000x1, .i32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S_, .i32⟩
  | .hbm, ⟨70, _⟩ => ⟨S600000, .i32⟩
  | .hbm, ⟨71, _⟩ => ⟨S600000, .i1⟩
  | .hbm, ⟨72, _⟩ => ⟨S_, .i32⟩
  | .hbm, ⟨73, _⟩ => ⟨S600000, .i32⟩
  | .hbm, ⟨74, _⟩ => ⟨S600000, .i32⟩
  | .hbm, ⟨75, _⟩ => ⟨S600000, .i32⟩
  | .hbm, ⟨76, _⟩ => ⟨S600000x1, .i32⟩
  | .hbm, ⟨77, _⟩ => ⟨S600000x128, .f32⟩
  | .hbm, ⟨78, _⟩ => ⟨S_, .f32⟩
  | .hbm, ⟨79, _⟩ => ⟨S100000x128, .f32⟩
  | .hbm, ⟨80, _⟩ => ⟨S600000x1, .i32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S1x128, .f32⟩
  | .hbm, ⟨85, _⟩ => ⟨S100000x128, .f32⟩
  | .local _ .vmem, ⟨0, _⟩ => ⟨S4000x3, .f32⟩
  | .local _ .vmem, ⟨1, _⟩ => ⟨S4000x3, .f32⟩
  | .local _ .vmem, ⟨2, _⟩ => ⟨S4000x3, .f32⟩
  | .local _ .vmem, ⟨3, _⟩ => ⟨S4000x3, .f32⟩
  | .local _ .vmem, ⟨4, _⟩ => ⟨S3x128, .f32⟩
  | .local _ .vmem, ⟨5, _⟩ => ⟨S3x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S4000x128, .f32⟩
  | .local _ .vmem, ⟨26, _⟩ => ⟨S4000x128, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_c_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_9 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_10 : Ref sig .tc := ⟨.hbm, 69, rfl⟩
abbrev main_v44 : Ref sig .tc := ⟨.hbm, 70, rfl⟩
abbrev main_v45 : Ref sig .tc := ⟨.hbm, 71, rfl⟩
abbrev main_c_11 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_12 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  shapeCasts_S100000_S100000x1 : S100000.ShapeCasts S100000x1
  bcast_S_S100000x3 : S_.BroadcastsInDim S100000x3 (![] : Fin 0 → Fin S100000x3.rank)
  bcast_S100000x1_S100000x3_0_1 : S100000x1.BroadcastsInDim S100000x3 (![0, 1] : Fin 2 → Fin S100000x3.rank)
  shapeCasts_S128_S1x128 : S128.ShapeCasts S1x128
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  bitsLt_bf16_f32 : FTy.bits .bf16 < FTy.bits .f32
  inb_S3x128_S3x128_0_0 : ∀ a, (![0, 0] : Fin 2 → Nat) a + S3x128.size a ≤ S3x128.size a
  h_S3x128 : 0 < S3x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  scatter_S100000_S600000x1_S600000_n_0_0_1_wf : ScatterDims.WF S100000 S600000x1 S600000 [] [0] [0] 1
  gather_S100000x3_S600000x1_S600000x3_1_0_n_n_0_1_13_wf : GatherDims.WF S100000x3 S600000x1 S600000x3 [1] [0] [] [0] [] 1 ![1, 3]
  scatter_S100000x3_S600000x1_S600000x3_1_0_0_1_wf : ScatterDims.WF S100000x3 S600000x1 S600000x3 [1] [0] [0] 1
  dot_S4000x3_S3x128_S4000x128_1_0_0_1_n_n_wf : DotDims.WF S4000x3 S3x128 S4000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x3.size a ≤ S100000x3.size a
  hwx0_0 : ∀ i : grid0.Coords, EltTy.bits .f32 = 32 ∨ (Rect.block (s := S100000x3) S4000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x3.size a ≤ S100000x3.size a
  hwx0_1 : ∀ i : grid0.Coords, EltTy.bits .f32 = 32 ∨ (Rect.block (s := S100000x3) S4000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128.size a ≤ S3x128.size a
  hwx0_2 : ∀ i : grid0.Coords, EltTy.bits .f32 = 32 ∨ (Rect.block (s := S3x128) S3x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128.size a ≤ S3x128.size a
  hwx0_3 : ∀ i : grid0.Coords, EltTy.bits .f32 = 32 ∨ (Rect.block (s := S3x128) S3x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x3_S600000x1_S600000x3_1_0_n_n_0_1_13 : GatherDims S100000x3 S600000x1 S600000x3 where
  offsetDims := [1]
  collapsedSliceDims := [0]
  operandBatchingDims := []
  startIndicesBatchingDims := []
  startIndexMap := [0]
  indexVectorDim := 1
  sliceSizes := ![1, 3]
  wf := gather_S100000x3_S600000x1_S600000x3_1_0_n_n_0_1_13_wf
def scatter_S100000x3_S600000x1_S600000x3_1_0_0_1 : ScatterDims S100000x3 S600000x1 S600000x3 where
  updateWindowDims := [1]
  insertedWindowDims := [0]
  scatterDimsToOperandDims := [0]
  indexVectorDim := 1
  wf := scatter_S100000x3_S600000x1_S600000x3_1_0_0_1_wf
def dot_S4000x3_S3x128_S4000x128_1_0_0_1_n_n : DotDims S4000x3 S3x128 S4000x128 where
  lhsContracting := [1]
  rhsContracting := [0]
  lhsNonContracting := [0]
  rhsNonContracting := [1]
  lhsBatch := []
  rhsBatch := []
  wf := dot_S4000x3_S3x128_S4000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v27) S4000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v55) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x3 : Shape := ⟨2, ![100000, 3]⟩
abbrev S2x600000 : Shape := ⟨2, ![2, 600000]⟩
abbrev S3x128 : Shape := ⟨2, ![3, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S600000x3 : Shape := ⟨2, ![600000, 3]⟩
abbrev S100000x1 : Shape := ⟨2, ![100000, 1]⟩
abbrev S100000x128 : Shape := ⟨2, ![100000, 128]⟩
abbrev S1x128 : Shape := ⟨2, ![1, 128]⟩
abbrev S600000x128 : Shape := ⟨2, ![600000, 128]⟩

abbrev nBuf : Space → Nat
  | .hbm => 109
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S2x600000, .i32⟩
  | .hbm, ⟨2, _⟩ => ⟨S3x128, .f32⟩
  | .hbm, ⟨3, _⟩ => ⟨S3x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .f32⟩
  | .hbm, ⟨16, _⟩ => ⟨S600000, .f32⟩
  | .hbm, ⟨17, _⟩ => ⟨S_, .f32⟩
  | .hbm, ⟨18, _⟩ => ⟨S100000, .f32⟩
  | .hbm, ⟨19, _⟩ => ⟨S600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S600000, .i32⟩
  | .hbm, ⟨36, _⟩ => ⟨S600000, .i1⟩
  | .hbm, ⟨37, _⟩ => ⟨S_, .i32⟩
  | .hbm, ⟨38, _⟩ => ⟨S600000, .i32⟩
  | .hbm, ⟨39, _⟩ => ⟨S600000, .i32⟩
  | .hbm, ⟨40, _⟩ => ⟨S600000, .i32⟩
  | .hbm, ⟨41, _⟩ => ⟨S600000x1, .i32⟩
  | .hbm, ⟨42, _⟩ => ⟨S600000x3, .f32⟩
  | .hbm, ⟨43, _⟩ => ⟨S_, .f32⟩
  | .hbm, ⟨44, _⟩ => ⟨S100000x3, .f32⟩
  | .hbm, ⟨45, _⟩ => ⟨S600000x1, .i32⟩
  | .hbm, ⟨46, _⟩ => ⟨S100000x3, .f32⟩
  | .hbm, ⟨47, _⟩ => ⟨S100000x1, .f32⟩
  | .hbm, ⟨48, _⟩ => ⟨S100000x3, .f32⟩
  | .hbm, ⟨49, _⟩ => ⟨S100000x3, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S_, .i32⟩
  | .hbm, ⟨60, _⟩ => ⟨S600000, .i32⟩
  | .hbm, ⟨61, _⟩ => ⟨S600000, .i1⟩
  | .hbm, ⟨62, _⟩ => ⟨S_, .i32⟩
  | .hbm, ⟨63, _⟩ => ⟨S600000, .i32⟩
  | .hbm, ⟨64, _⟩ => ⟨S600000, .i32⟩
  | .hbm, ⟨65, _⟩ => ⟨S600000, .i32⟩
  | .hbm, ⟨66, _⟩ => ⟨S600000x1, .i32⟩
  | .hbm, ⟨67, _⟩ => ⟨S600000x128, .f32⟩
  | .hbm, ⟨68, _⟩ => ⟨S_, .f32⟩
  | .hbm, ⟨69, _⟩ => ⟨S100000x128, .f32⟩
  | .hbm, ⟨70, _⟩ => ⟨S600000x1, .i32⟩
  | .hbm, ⟨71, _⟩ => ⟨S100000x128, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .f32⟩
  | .hbm, ⟨84, _⟩ => ⟨S_, .i32⟩
  | .hbm, ⟨85, _⟩ => ⟨S600000, .i32⟩
  | .hbm, ⟨86, _⟩ => ⟨S600000, .i1⟩
  | .hbm, ⟨87, _⟩ => ⟨S_, .i32⟩
  | .hbm, ⟨88, _⟩ => ⟨S600000, .i32⟩
  | .hbm, ⟨89, _⟩ => ⟨S600000, .i32⟩
  | .hbm, ⟨90, _⟩ => ⟨S600000, .i32⟩
  | .hbm, ⟨91, _⟩ => ⟨S600000x1, .i32⟩
  | .hbm, ⟨92, _⟩ => ⟨S600000x128, .f32⟩
  | .hbm, ⟨93, _⟩ => ⟨S_, .f32⟩
  | .hbm, ⟨94, _⟩ => ⟨S100000x128, .f32⟩
  | .hbm, ⟨95, _⟩ => ⟨S600000x1, .i32⟩
  | .hbm, ⟨96, _⟩ => ⟨S100000x128, .f32⟩
  | .hbm, ⟨97, _⟩ => ⟨S100000x1, .f32⟩
  | .hbm, ⟨98, _⟩ => ⟨S100000x128, .f32⟩
  | .hbm, ⟨99, _⟩ => ⟨S100000x128, .f32⟩
  | .hbm, ⟨100, _⟩ => ⟨S100000x128, .f32⟩
  | .hbm, ⟨101, _⟩ => ⟨S1x128, .f32⟩
  | .hbm, ⟨102, _⟩ => ⟨S100000x128, .f32⟩
  | .hbm, ⟨103, _⟩ => ⟨S100000x128, .f32⟩
  | .hbm, ⟨104, _⟩ => ⟨S100000x128, .f32⟩
  | .hbm, ⟨105, _⟩ => ⟨S100000x128, .f32⟩
  | .hbm, ⟨106, _⟩ => ⟨S_, .f32⟩
  | .hbm, ⟨107, _⟩ => ⟨S100000x128, .f32⟩
  | .hbm, ⟨108, _⟩ => ⟨S100000x128, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call1_cst : Ref sig .tc := ⟨.hbm, 56, rfl⟩
abbrev main_call1_v0 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call2_cst : Ref sig .tc := ⟨.hbm, 81, rfl⟩
abbrev main_call2_v0 : Ref sig .tc := ⟨.hbm, 82, rfl⟩
abbrev main_v54 : Ref sig .tc := ⟨.hbm, 83, rfl⟩
abbrev main_c_10 : Ref sig .tc := ⟨.hbm, 84, rfl⟩
abbrev main_v55 : Ref sig .tc := ⟨.hbm, 85, rfl⟩
abbrev main_v56 : Ref sig .tc := ⟨.hbm, 86, rfl⟩
abbrev main_c_11 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_12 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_call3_cst : Ref sig .tc := ⟨.hbm, 106, rfl⟩
abbrev main_call3_v0 : Ref sig .tc := ⟨.hbm, 107, rfl⟩
abbrev main_v74 : Ref sig .tc := ⟨.hbm, 108, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S_S100000x3 : S_.BroadcastsInDim S100000x3 (![] : Fin 0 → Fin S100000x3.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  scatter_S100000_S600000x1_S600000_n_0_0_1_wf : ScatterDims.WF S100000 S600000x1 S600000 [] [0] [0] 1
  gather_S100000x3_S600000x1_S600000x3_1_0_n_n_0_1_13_wf : GatherDims.WF S100000x3 S600000x1 S600000x3 [1] [0] [] [0] [] 1 ![1, 3]
  scatter_S100000x3_S600000x1_S600000x3_1_0_0_1_wf : ScatterDims.WF S100000x3 S600000x1 S600000x3 [1] [0] [0] 1
  dot_S100000x3_S3x128_S100000x128_1_0_0_1_n_n_wf : DotDims.WF S100000x3 S3x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x3_S600000x1_S600000x3_1_0_n_n_0_1_13 : GatherDims S100000x3 S600000x1 S600000x3 where
  offsetDims := [1]
  collapsedSliceDims := [0]
  operandBatchingDims := []
  startIndicesBatchingDims := []
  startIndexMap := [0]
  indexVectorDim := 1
  sliceSizes := ![1, 3]
  wf := gather_S100000x3_S600000x1_S600000x3_1_0_n_n_0_1_13_wf
def scatter_S100000x3_S600000x1_S600000x3_1_0_0_1 : ScatterDims S100000x3 S600000x1 S600000x3 where
  updateWindowDims := [1]
  insertedWindowDims := [0]
  scatterDimsToOperandDims := [0]
  indexVectorDim := 1
  wf := scatter_S100000x3_S600000x1_S600000x3_1_0_0_1_wf
def dot_S100000x3_S3x128_S100000x128_1_0_0_1_n_n : DotDims S100000x3 S3x128 S100000x128 where
  lhsContracting := [1]
  rhsContracting := [0]
  lhsNonContracting := [0]
  rhsNonContracting := [1]
  lhsBatch := []
  rhsBatch := []
  wf := dot_S100000x3_S3x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its result named.

  @main is eight segments: three stretches of host operations, pallas_call 0, a stretch, pallas_call 1, a stretch,
  pallas_call 2. The contents of every buffer at each segment boundary are a fold from the launch memory (`W0` … `W8`
  of the frame module): a stretch applies its operations, a pallas_call replaces its arrays by what its write-backs
  leave and keeps every other buffer. Every weakly fair execution terminates, nothing faulting, with every unscoped
  buffer at the last boundary's contents `W8`. Read at the eleven arguments that is the frame claim; read also at the
  result buffer it says the result array ends at `W8` there (`run_result`), which the value lemmas then compute.
-/
import proofs.«102981_j7361573945898_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last boundary's
    contents and the argument arrays end as launched. -/
theorem run_result : θ_run defs (onTc (τ := τ) (main (F := F))) ⟨m, fun _ => 0, ρ⟩ (fun r => ∀ c : Dev nD,
      r.2.mem ((c.tc : Thread nD τ).loc main_v57) = W8 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v57 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.RunValue

end
-- ==== Proof.KernelCarry.lean ====
/-
  What the kernel's host side carries from the launch to each pallas_call.

  The contents of every buffer at each boundary of @main are a fold from the launch memory. No host operation and no
  write-back of a pallas_call touches an argument array, the two index vectors cut from the edge array (source nodes,
  destination nodes) or the inverse-degree column, so at every later boundary each still holds what the first
  stretches of host operations computed from the launch memory: the arguments themselves; for the index vectors and
  the inverse degrees exactly the terms the reference computes from the same edge array (its stages `val_main_v1`,
  `val_main_v3`, `val_main_v14`) — the two programs spell these operations identically. The kernel lays the inverse
  degrees out as a column by a reshape where the reference broadcasts: `W3_v15` states the kernel's spelling.
-/
import proofs.«102981_j7361573945898_1_alg».proof.Proof.Gen.KernelIdeal.Frame
import proofs.«102981_j7361573945898_1_alg».proof.Proof.RefRead
import Idealize.ShloMosaic.Lib.StableHlo.Run
import Idealize.ShloMosaic.PureOps.Ideal

set_option maxRecDepth 16384

noncomputable section

namespace Cert.KernelIdeal.Carry

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## The arguments, at the boundaries where they are read -/

theorem W3_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results <;> rfl

theorem W3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results <;> rfl

theorem W3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results <;> rfl

theorem W3_arg7 : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results <;> rfl
theorem W4_arg7 : W4 m ρ c (Proc.devRef .tc main_arg7) = (m ((c : Thread nD τ).loc main_arg7)) :=
  (W4_of_ne m ρ c main_arg7 (by decide)).trans (W3_arg7 m ρ c)

theorem W3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results <;> rfl
theorem W4_arg5 : W4 m ρ c (Proc.devRef .tc main_arg5) = (m ((c : Thread nD τ).loc main_arg5)) :=
  (W4_of_ne m ρ c main_arg5 (by decide)).trans (W3_arg5 m ρ c)
theorem W5_arg5 : W5 m ρ c (Proc.devRef .tc main_arg5) = (m ((c : Thread nD τ).loc main_arg5)) := by
  show StableHlo.after hostOps1 (W4 m ρ c) (Proc.devRef .tc main_arg5) = _
  after_results
  exact W4_arg5 m ρ c

theorem W3_arg6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results <;> rfl
theorem W4_arg6 : W4 m ρ c (Proc.devRef .tc main_arg6) = (m ((c : Thread nD τ).loc main_arg6)) :=
  (W4_of_ne m ρ c main_arg6 (by decide)).trans (W3_arg6 m ρ c)
theorem W5_arg6 : W5 m ρ c (Proc.devRef .tc main_arg6) = (m ((c : Thread nD τ).loc main_arg6)) := by
  show StableHlo.after hostOps1 (W4 m ρ c) (Proc.devRef .tc main_arg6) = _
  after_results
  exact W4_arg6 m ρ c

theorem W3_arg10 : W3 m ρ c (Proc.devRef .tc main_arg10) = (m ((c : Thread nD τ).loc main_arg10)) := by
  show StableHlo.after hostOps0_2 (StableHlo.after hostOps0_1 (StableHlo.after hostOps0 (W0 m ρ c))) (Proc.devRef .tc main_arg10) = _
  after_results <;> rfl
theorem W4_arg10 : W4 m ρ c (Proc.devRef .tc main_arg10) = (m ((c : Thread nD τ).loc main_arg10)) :=
  (W4_of_ne m ρ c main_arg10 (by decide)).trans (W3_arg10 m ρ c)
theorem W5_arg10 : W5 m ρ c (Proc.devRef .tc main_arg10) = (m ((c : Thread nD τ).loc main_arg10)) := by
  show StableHlo.after hostOps1 (W4 m ρ c) (Proc.devRef .tc main_arg10) = _
  after_results
  exact W4_arg10 m ρ c
theorem W6_arg10 : W6 m ρ c (Proc.devRef .tc main_arg10) = (m ((c : Thread nD τ).loc main_arg10)) :=
  (W6_of_ne m ρ c main_arg10 (by decide)).trans (W5_arg10 m ρ c)

theorem W3_arg8 : W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  after_results <;> rfl
theorem W4_arg8 : W4 m ρ c (Proc.devRef .tc main_arg8) = (m ((c : Thread nD τ).loc main_arg8)) :=
  (W4_of_ne m ρ c main_arg8 (by decide)).trans (W3_arg8 m ρ c)
theorem W5_arg8 : W5 m ρ c (Proc.devRef .tc main_arg8) = (m ((c : Thread nD τ).loc main_arg8)) := by
  show StableHlo.after hostOps1 (W4 m ρ c) (Proc.devRef .tc main_arg8) = _
  after_results
  exact W4_arg8 m ρ c
theorem W6_arg8 : W6 m ρ c (Proc.devRef .tc main_arg8) = (m ((c : Thread nD τ).loc main_arg8)) :=
  (W6_of_ne m ρ c main_arg8 (by decide)).trans (W5_arg8 m ρ c)
theorem W7_arg8 : W7 m ρ c (Proc.devRef .tc main_arg8) = (m ((c : Thread nD τ).loc main_arg8)) := by
  show StableHlo.after hostOps2 (W6 m ρ c) (Proc.devRef .tc main_arg8) = _
  after_results
  exact W6_arg8 m ρ c

theorem W3_arg9 : W3 m ρ c (Proc.devRef .tc main_arg9) = (m ((c : Thread nD τ).loc main_arg9)) := by
  show StableHlo.after hostOps0_2 (StableHlo.after hostOps0_1 (StableHlo.after hostOps0 (W0 m ρ c))) (Proc.devRef .tc main_arg9) = _
  after_results <;> rfl
theorem W4_arg9 : W4 m ρ c (Proc.devRef .tc main_arg9) = (m ((c : Thread nD τ).loc main_arg9)) :=
  (W4_of_ne m ρ c main_arg9 (by decide)).trans (W3_arg9 m ρ c)
theorem W5_arg9 : W5 m ρ c (Proc.devRef .tc main_arg9) = (m ((c : Thread nD τ).loc main_arg9)) := by
  show StableHlo.after hostOps1 (W4 m ρ c) (Proc.devRef .tc main_arg9) = _
  after_results
  exact W4_arg9 m ρ c
theorem W6_arg9 : W6 m ρ c (Proc.devRef .tc main_arg9) = (m ((c : Thread nD τ).loc main_arg9)) :=
  (W6_of_ne m ρ c main_arg9 (by decide)).trans (W5_arg9 m ρ c)
theorem W7_arg9 : W7 m ρ c (Proc.devRef .tc main_arg9) = (m ((c : Thread nD τ).loc main_arg9)) := by
  show StableHlo.after hostOps2 (W6 m ρ c) (Proc.devRef .tc main_arg9) = _
  after_results
  exact W6_arg9 m ρ c

/-! ## The inverse degrees, stage by stage

The in-degrees (ones accumulated by destination node), their comparison with zero and the quotient `1 / max (deg, 1)`
are computed by the first stretch of host operations; the selection between the quotient and zero is an outlined
function's three operations, whose values pass through the call's typed references (transports along a reflexive
type equation, removed by `cast_eq`). -/

set_option maxHeartbeats 4000000 in
theorem W1_v9 : W1 m ρ c (Proc.devRef .tc main_v9) = Cert.ReferenceIdeal.ReadP.val_main_v9 (F := Ideal) (m ((c : Thread nD τ).loc main_arg1)) := by
  show StableHlo.after hostOps0 (W0 m ρ c) (Proc.devRef .tc main_v9) = _
  after_results_simp <;> rfl

set_option maxHeartbeats 4000000 in
theorem W1_v13 : W1 m ρ c (Proc.devRef .tc main_v13) = Cert.ReferenceIdeal.ReadP.val_main_v13 (F := Ideal) (m ((c : Thread nD τ).loc main_arg1)) := by
  show StableHlo.after hostOps0 (W0 m ρ c) (Proc.devRef .tc main_v13) = _
  after_results_simp <;> rfl

theorem W1_cst4 : W1 m ρ c (Proc.devRef .tc main_cst_4) = Cert.ReferenceIdeal.ReadP.val_main_cst_4 (F := Ideal) := by
  show StableHlo.after hostOps0 (W0 m ρ c) (Proc.devRef .tc main_cst_4) = _
  after_results <;> rfl

/-- The inverse degrees after the selection: the reference's. -/
theorem W2_v14 : W2 m ρ c (Proc.devRef .tc main_v14) = Cert.ReferenceIdeal.ReadP.val_main_v14 (F := Ideal) (m ((c : Thread nD τ).loc main_arg1)) := by
  have e9 := W1_v9 m ρ c
  have e13 := W1_v13 m ρ c
  have e4 := W1_cst4 m ρ c
  show StableHlo.after hostOps0_1 (W1 m ρ c) (Proc.devRef .tc main_v14) = _
  generalize W1 m ρ c = X at e9 e13 e4 ⊢
  after_results
  rw [e9, e13, e4]
  simp only [TRef.toBuf, TRef.ofBuf, cast_eq, id_eq]
  rfl

theorem W2_v1 : W2 m ρ c (Proc.devRef .tc main_v1) = Cert.ReferenceIdeal.ReadP.val_main_v1 (F := Ideal) (m ((c : Thread nD τ).loc main_arg1)) := by
  show StableHlo.after hostOps0_1 (StableHlo.after hostOps0 (W0 m ρ c)) (Proc.devRef .tc main_v1) = _
  after_results <;> rfl

theorem W2_v3 : W2 m ρ c (Proc.devRef .tc main_v3) = Cert.ReferenceIdeal.ReadP.val_main_v3 (F := Ideal) (m ((c : Thread nD τ).loc main_arg1)) := by
  show StableHlo.after hostOps0_1 (StableHlo.after hostOps0 (W0 m ρ c)) (Proc.devRef .tc main_v3) = _
  after_results <;> rfl

theorem W2_arg0 : W2 m ρ c (Proc.devRef .tc main_arg0) = (m ((c : Thread nD τ).loc main_arg0)) := by
  show StableHlo.after hostOps0_1 (StableHlo.after hostOps0 (W0 m ρ c)) (Proc.devRef .tc main_arg0) = _
  after_results <;> rfl

/-! ## The index vectors and the inverse-degree column -/

theorem W3_v1 : W3 m ρ c (Proc.devRef .tc main_v1) = Cert.ReferenceIdeal.ReadP.val_main_v1 (F := Ideal) (m ((c : Thread nD τ).loc main_arg1)) := by
  show StableHlo.after hostOps0_2 (StableHlo.after hostOps0_1 (StableHlo.after hostOps0 (W0 m ρ c))) (Proc.devRef .tc main_v1) = _
  after_results <;> rfl
theorem W4_v1 : W4 m ρ c (Proc.devRef .tc main_v1) = Cert.ReferenceIdeal.ReadP.val_main_v1 (F := Ideal) (m ((c : Thread nD τ).loc main_arg1)) :=
  (W4_of_ne m ρ c main_v1 (by decide)).trans (W3_v1 m ρ c)
theorem W5_v1 : W5 m ρ c (Proc.devRef .tc main_v1) = Cert.ReferenceIdeal.ReadP.val_main_v1 (F := Ideal) (m ((c : Thread nD τ).loc main_arg1)) := by
  show StableHlo.after hostOps1 (W4 m ρ c) (Proc.devRef .tc main_v1) = _
  after_results
  exact W4_v1 m ρ c
theorem W6_v1 : W6 m ρ c (Proc.devRef .tc main_v1) = Cert.ReferenceIdeal.ReadP.val_main_v1 (F := Ideal) (m ((c : Thread nD τ).loc main_arg1)) :=
  (W6_of_ne m ρ c main_v1 (by decide)).trans (W5_v1 m ρ c)

theorem W3_v3 : W3 m ρ c (Proc.devRef .tc main_v3) = Cert.ReferenceIdeal.ReadP.val_main_v3 (F := Ideal) (m ((c : Thread nD τ).loc main_arg1)) := by
  show StableHlo.after hostOps0_2 (StableHlo.after hostOps0_1 (StableHlo.after hostOps0 (W0 m ρ c))) (Proc.devRef .tc main_v3) = _
  after_results <;> rfl
theorem W4_v3 : W4 m ρ c (Proc.devRef .tc main_v3) = Cert.ReferenceIdeal.ReadP.val_main_v3 (F := Ideal) (m ((c : Thread nD τ).loc main_arg1)) :=
  (W4_of_ne m ρ c main_v3 (by decide)).trans (W3_v3 m ρ c)
theorem W5_v3 : W5 m ρ c (Proc.devRef .tc main_v3) = Cert.ReferenceIdeal.ReadP.val_main_v3 (F := Ideal) (m ((c : Thread nD τ).loc main_arg1)) := by
  show StableHlo.after hostOps1 (W4 m ρ c) (Proc.devRef .tc main_v3) = _
  after_results
  exact W4_v3 m ρ c
theorem W6_v3 : W6 m ρ c (Proc.devRef .tc main_v3) = Cert.ReferenceIdeal.ReadP.val_main_v3 (F := Ideal) (m ((c : Thread nD τ).loc main_arg1)) :=
  (W6_of_ne m ρ c main_v3 (by decide)).trans (W5_v3 m ρ c)

/-- The inverse-degree column: the kernel reshapes the inverse degrees to `[100000, 1]`. -/
theorem W3_v15 : W3 m ρ c (Proc.devRef .tc main_v15) = shapeCast S100000x1 (Cert.ReferenceIdeal.ReadP.val_main_v14 (F := Ideal) (m ((c : Thread nD τ).loc main_arg1))) shapeCasts_S100000_S100000x1 := by
  have e := W2_v14 m ρ c
  show StableHlo.after hostOps0_2 (W2 m ρ c) (Proc.devRef .tc main_v15) = _
  generalize W2 m ρ c = X at e ⊢
  after_results
  rw [e]
  rfl
theorem W4_v15 : W4 m ρ c (Proc.devRef .tc main_v15) = shapeCast S100000x1 (Cert.ReferenceIdeal.ReadP.val_main_v14 (F := Ideal) (m ((c : Thread nD τ).loc main_arg1))) shapeCasts_S100000_S100000x1 :=
  (W4_of_ne m ρ c main_v15 (by decide)).trans (W3_v15 m ρ c)
theorem W5_v15 : W5 m ρ c (Proc.devRef .tc main_v15) = shapeCast S100000x1 (Cert.ReferenceIdeal.ReadP.val_main_v14 (F := Ideal) (m ((c : Thread nD τ).loc main_arg1))) shapeCasts_S100000_S100000x1 := by
  show StableHlo.after hostOps1 (W4 m ρ c) (Proc.devRef .tc main_v15) = _
  after_results
  exact W4_v15 m ρ c
theorem W6_v15 : W6 m ρ c (Proc.devRef .tc main_v15) = shapeCast S100000x1 (Cert.ReferenceIdeal.ReadP.val_main_v14 (F := Ideal) (m ((c : Thread nD τ).loc main_arg1))) shapeCasts_S100000_S100000x1 :=
  (W6_of_ne m ρ c main_v15 (by decide)).trans (W5_v15 m ρ c)

end Cert.KernelIdeal.Carry

end
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.LibRowBias.lean ====
/-
  Adding one row to every row of an array, with or without a floor, on the extended reals.

  `rowBias a b` adds the single row `b` (an `[1, N]` array) to every row of the `[M, N]` array `a`;
  `rowBiasFloor z a b` then takes the maximum with `z`, entry by entry. An entry of either depends on the same entry of
  `a` and on its column of `b` only, so a block of rows of the result is the result of that block of rows of `a`
  (`rowBias_rows`, `rowBiasFloor_rows`).
-/
import Idealize.ShloMosaic.PureOps.Ideal
import Idealize.ShloMosaic.Lib.ValueIdx

noncomputable section

namespace Cert.LibRowBias

open Idealize.ShloMosaic Idealize.ShloMosaic.ValueIdx

/-- Every row of `a` plus the one row `b`. -/
def rowBias {M N : ℕ} (a : (⟨2, ![M, N]⟩ : Shape).Idx → EReal) (b : (⟨2, ![1, N]⟩ : Shape).Idx → EReal) :
    (⟨2, ![M, N]⟩ : Shape).Idx → EReal :=
  fun i => a i + b (ix2 (0 : Fin 1) (⟨(i 1).val, idx2_lt1 i⟩ : Fin N))

/-- Every row of `a` plus the one row `b`, floored at `z`. -/
def rowBiasFloor {M N : ℕ} (z : EReal) (a : (⟨2, ![M, N]⟩ : Shape).Idx → EReal) (b : (⟨2, ![1, N]⟩ : Shape).Idx → EReal) :
    (⟨2, ![M, N]⟩ : Shape).Idx → EReal :=
  fun i => max (rowBias a b i) z

theorem rowBias_apply {M N : ℕ} (a : (⟨2, ![M, N]⟩ : Shape).Idx → EReal) (b : (⟨2, ![1, N]⟩ : Shape).Idx → EReal)
    (p : Fin M) (q : Fin N) : rowBias a b (ix2 p q) = a (ix2 p q) + b (ix2 (0 : Fin 1) q) := rfl

theorem rowBiasFloor_apply {M N : ℕ} (z : EReal) (a : (⟨2, ![M, N]⟩ : Shape).Idx → EReal) (b : (⟨2, ![1, N]⟩ : Shape).Idx → EReal)
    (p : Fin M) (q : Fin N) : rowBiasFloor z a b (ix2 p q) = max (a (ix2 p q) + b (ix2 (0 : Fin 1) q)) z := rfl

/-- Rows `o, …, o + R - 1` of `rowBias a b` are `rowBias` of those rows of `a`. -/
theorem rowBias_rows {M R N : ℕ} (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBias ab b y = rowBias a b i := by
  have hM : o + (y 0).val < M := h0 ▸ idx2_lt0 i
  have ey : y = ix2 (⟨(y 0).val, idx2_lt0 y⟩ : Fin R) (⟨(y 1).val, idx2_lt1 y⟩ : Fin N) := by
    funext d; match d with | ⟨0, _⟩ => rfl | ⟨1, _⟩ => rfl
  have ei : i = ix2 (⟨o + (y 0).val, hM⟩ : Fin M) (⟨(y 1).val, idx2_lt1 y⟩ : Fin N) := by
    funext d; match d with | ⟨0, _⟩ => exact Fin.ext h0 | ⟨1, _⟩ => exact Fin.ext h1
  have hab : ab y = a i :=
    (congrArg ab ey).trans ((ha ⟨(y 0).val, idx2_lt0 y⟩ ⟨(y 1).val, idx2_lt1 y⟩ hM).trans (congrArg a ei.symm))
  have hq : (⟨(y 1).val, idx2_lt1 y⟩ : Fin N) = ⟨(i 1).val, idx2_lt1 i⟩ := Fin.ext h1.symm
  unfold rowBias
  rw [hab, hq]

/-- The same with the floor. -/
theorem rowBiasFloor_rows {M R N : ℕ} (z : EReal) (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBiasFloor z ab b y = rowBiasFloor z a b i := by
  unfold rowBiasFloor
  rw [rowBias_rows o a ab b ha y i h0 h1]

end Cert.LibRowBias

end
-- ==== Proof.LibRowBiasHost.lean ====
/-
  The host's spelling of "add one row to every row", read as `rowBias` / `rowBiasFloor`.

  On the host a length-`N` vector is first broadcast to `[1, N]` along axis 1, then to `[M, N]` along both axes, and
  added to an `[M, N]` array; a ReLU then takes the maximum with a broadcast scalar. At entry `(p, q)` both broadcasts
  read the vector at `q`, which is also what the vector RESHAPED to `[1, N]` holds at `(0, q)`: so the host's sum is
  `rowBias` of the array and the reshaped vector, and with the maximum it is `rowBiasFloor` at the scalar's value.
-/
import proofs.«102981_j7361573945898_1_alg».proof.Proof.LibRowBias
import Idealize.ShloMosaic.Lib.Pipeline.Value
import Idealize.ShloMosaic.Lib.ValueLayout

noncomputable section

namespace Cert.LibRowBias

open Idealize.ShloMosaic Idealize.ShloMosaic.ValueIdx

/-- A vector broadcast to one row and then over `M` rows reads, at `(p, q)`, the vector at `q`. -/
theorem bcastRow_apply {α : Type} {M N : ℕ}
    (h1 : (⟨1, ![N]⟩ : Shape).BroadcastsInDim ⟨2, ![1, N]⟩ ![1])
    (h2 : (⟨2, ![1, N]⟩ : Shape).BroadcastsInDim ⟨2, ![M, N]⟩ ![0, 1])
    (x : (⟨1, ![N]⟩ : Shape).Idx → α) (p : Fin M) (q : Fin N) :
    broadcastInDim ⟨2, ![M, N]⟩ ![0, 1] h2 (broadcastInDim ⟨2, ![1, N]⟩ ![1] h1 x) (ix2 p q) = x (ix1 q) := by
  have hq : q.val = if N = 1 then 0 else q.val := by
    split
    · have := q.isLt; omega
    · rfl
  refine (broadcastInDim_apply ![0, 1] h2 (broadcastInDim ⟨2, ![1, N]⟩ ![1] h1 x) (ix2 p q) (ix2 (0 : Fin 1) q) (fun a => ?_)).trans ?_
  · match a with
    | ⟨0, _⟩ => show 0 = if (1 : ℕ) = 1 then 0 else p.val; rw [if_pos rfl]
    | ⟨1, _⟩ => show q.val = if N = 1 then 0 else q.val; exact hq
  · refine broadcastInDim_apply ![1] h1 x (ix2 (0 : Fin 1) q) (ix1 q) (fun a => ?_)
    match a with
    | ⟨0, _⟩ => show q.val = if N = 1 then 0 else q.val; exact hq

/-- The host's sum of an array and a twice-broadcast vector is `rowBias` of the array and the reshaped vector. -/
theorem addf_bcastRow {M N : ℕ} (a : FVec Ideal ⟨2, ![M, N]⟩ .f32) (x : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 x))
      = rowBias (M := M) (N := N) a (shapeCast ⟨2, ![1, N]⟩ x hc) := by
  funext i
  obtain ⟨p, q, rfl⟩ : ∃ (p : Fin M) (q : Fin N), i = ix2 p q :=
    ⟨⟨(i 0).val, idx2_lt0 i⟩, ⟨(i 1).val, idx2_lt1 i⟩, by funext d; match d with | ⟨0, _⟩ => rfl | ⟨1, _⟩ => rfl⟩
  rw [rowBias_apply, shapeCast_a_1a_apply]
  show a (ix2 p q) + broadcastInDim ⟨2, ![M, N]⟩ ![0, 1] h2 (broadcastInDim ⟨2, ![1, N]⟩ ![1] h1 x) (ix2 p q) = _
  rw [bcastRow_apply]

/-- With the ReLU's maximum against a broadcast scalar word `w`: `rowBiasFloor` at the word's value. -/
theorem max_addf_bcastRow {M N : ℕ} (w : BitVec 32) (a : FVec Ideal ⟨2, ![M, N]⟩ .f32) (x : FVec Ideal ⟨1, ![N]⟩ .f32)
    (h0 : (⟨0, ![]⟩ : Shape).BroadcastsInDim ⟨2, ![M, N]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 x)))
        (broadcastInDim ⟨2, ![M, N]⟩ ![] h0 (constant (F := Ideal) ⟨0, ![]⟩ .f32 w))
      = rowBiasFloor (M := M) (N := N) (Ideal.ofBits .f32 w) a (shapeCast ⟨2, ![1, N]⟩ x hc) := by
  rw [addf_bcastRow a x h1 h2 hc]
  rfl

end Cert.LibRowBias

end
-- ==== Proof.LibSageDense.lean ====
/-
  One dense layer of a mean-aggregating graph network, on the extended reals.

  For an `[M, K]` array `a` of aggregated neighbour features, an `[M, K]` array `h` of the nodes' own features, two
  `[K, N]` weight matrices `wl`, `wr` and one bias row `b`, the layer's entry `(p, q)` is

      max ((∑ k, a (p, k) * wl (k, q) + ∑ k, h (p, k) * wr (k, q)) + b (0, q)) z

  (`layer`; `z` is the floor, zero for a ReLU). Two programs may add the three terms in different groupings: one adds
  the two products first and the bias last, the other adds the bias to the first product and the second product
  last. Addition of extended reals is commutative and associative whatever the operands, infinite ones included, so
  the two groupings are one function (`layer_eq_biasFirst`): no operand needs to be finite.

  An entry of the layer depends on its own row of `a` and of `h` only, so a block of rows of the layer is the layer
  of those blocks of rows (`layer_rows`).

  At the ideal values a matrix-unit body that rounds its four operands to a narrower format (the identity there),
  multiplies into zero accumulators, adds the two products, adds the broadcast bias row and takes the maximum with a
  splat scalar is this layer of its operands (`body_layer`), and so is the host's spelling with the bias added to the
  first product (`host_layer`).
-/
import proofs.«102981_j7361573945898_1_alg».proof.Proof.LibPlainDot
import proofs.«102981_j7361573945898_1_alg».proof.Proof.LibRowBias
import proofs.«102981_j7361573945898_1_alg».proof.Proof.LibRowBiasHost
import Idealize.ShloMosaic.PureOps.Ideal.Laws
import Idealize.ShloMosaic.Lib.ValueIdx
import Idealize.ShloMosaic.Lib.Pipeline.Value

noncomputable section

namespace Cert.SageLayer

open Idealize.ShloMosaic Idealize.ShloMosaic.ValueIdx Cert.LibPlainDot Cert.LibRowBias

/-- The layer: the two products added, then the bias row, then the floor. -/
def layer {M K N : ℕ} (z : EReal) (a h : (⟨2, ![M, K]⟩ : Shape).Idx → EReal) (wl wr : (⟨2, ![K, N]⟩ : Shape).Idx → EReal)
    (b : (⟨2, ![1, N]⟩ : Shape).Idx → EReal) : (⟨2, ![M, N]⟩ : Shape).Idx → EReal :=
  rowBiasFloor z (fun i => rowsTimes a wl i + rowsTimes h wr i) b

theorem layer_apply {M K N : ℕ} (z : EReal) (a h : (⟨2, ![M, K]⟩ : Shape).Idx → EReal) (wl wr : (⟨2, ![K, N]⟩ : Shape).Idx → EReal)
    (b : (⟨2, ![1, N]⟩ : Shape).Idx → EReal) (p : Fin M) (q : Fin N) :
    layer z a h wl wr b (ix2 p q)
      = max ((∑ k : Fin K, a (ix2 p k) * wl (ix2 k q) + ∑ k : Fin K, h (ix2 p k) * wr (ix2 k q)) + b (ix2 (0 : Fin 1) q)) z := rfl

/-- The bias added to the first product, the second product last: the same layer, by commutativity and
    associativity of the sum of three extended reals. -/
theorem layer_eq_biasFirst {M K N : ℕ} (z : EReal) (a h : (⟨2, ![M, K]⟩ : Shape).Idx → EReal)
    (wl wr : (⟨2, ![K, N]⟩ : Shape).Idx → EReal) (b : (⟨2, ![1, N]⟩ : Shape).Idx → EReal) :
    (fun i => max (rowBias (rowsTimes a wl) b i + rowsTimes h wr i) z) = layer z a h wl wr b := by
  funext i
  unfold layer rowBiasFloor rowBias
  rw [add_right_comm]

/-- Rows `o, …, o + R - 1` of the layer are the layer of those rows of `a` and of `h`. -/
theorem layer_rows {M R K N : ℕ} (z : EReal) (o : ℕ) (a h : (⟨2, ![M, K]⟩ : Shape).Idx → EReal)
    (ab hb : (⟨2, ![R, K]⟩ : Shape).Idx → EReal) (wl wr : (⟨2, ![K, N]⟩ : Shape).Idx → EReal)
    (b : (⟨2, ![1, N]⟩ : Shape).Idx → EReal)
    (ha : ∀ (y : Fin R) (k : Fin K) (hlt : o + y.val < M), ab (ix2 y k) = a (ix2 (⟨o + y.val, hlt⟩ : Fin M) k))
    (hh : ∀ (y : Fin R) (k : Fin K) (hlt : o + y.val < M), hb (ix2 y k) = h (ix2 (⟨o + y.val, hlt⟩ : Fin M) k))
    (y : (⟨2, ![R, N]⟩ : Shape).Idx) (i : (⟨2, ![M, N]⟩ : Shape).Idx) (h0 : (i 0).val = o + (y 0).val) (h1 : (i 1).val = (y 1).val) :
    layer z ab hb wl wr b y = layer z a h wl wr b i := by
  have hq : (⟨(y 1).val, idx2_lt1 y⟩ : Fin N) = ⟨(i 1).val, idx2_lt1 i⟩ := Fin.ext h1.symm
  unfold layer rowBiasFloor rowBias
  dsimp only
  rw [rowsTimes_rows o a ab wl ha y i h0 h1, rowsTimes_rows o h hb wr hh y i h0 h1, hq]

/-- A one-row array broadcast over `M` rows reads, at `(p, q)`, the row at `(0, q)`. -/
theorem bcastRows_apply {α : Type} {M N : ℕ} (b : (⟨2, ![1, N]⟩ : Shape).Idx → α)
    (hb : (⟨2, ![1, N]⟩ : Shape).Broadcasts ⟨2, ![M, N]⟩) (p : Fin M) (q : Fin N) :
    broadcastTo ⟨2, ![M, N]⟩ b hb (ix2 p q) = b (ix2 (0 : Fin 1) q) := by
  have hq : q.val = if N = 1 then 0 else q.val := by
    split
    · have := q.isLt; omega
    · rfl
  refine broadcastTo_apply b hb (ix2 p q) (ix2 (0 : Fin 1) q) (fun a => ?_)
  match a with
  | ⟨0, _⟩ => show 0 = if (1 : ℕ) = 1 then 0 else p.val; rw [if_pos rfl]
  | ⟨1, _⟩ => show q.val = if N = 1 then 0 else q.val; exact hq

/-- The matrix-unit body's value: operands rounded to a narrower format, two products into zero accumulators, their
    sum, the broadcast bias row, the maximum with a splat scalar. -/
theorem body_layer {M K N : ℕ} {ψ : FTy} (prec : Option ContractPrecision) (w : BitVec 32)
    (a h : FVec Ideal ⟨2, ![M, K]⟩ .f32) (wl wr : FVec Ideal ⟨2, ![K, N]⟩ .f32) (b : FVec Ideal ⟨2, ![1, N]⟩ .f32)
    (hlt : ψ.bits < FTy.f32.bits) (hb : (⟨2, ![1, N]⟩ : Shape).Broadcasts ⟨2, ![M, N]⟩) :
    maximumf
        (addf
          (addf
            (matmul (DotDims.plain M K N) prec (truncf ψ a hlt) (truncf ψ wl hlt) (constant ⟨2, ![M, N]⟩ .f32 0x00000000#32))
            (matmul (DotDims.plain M K N) prec (truncf ψ h hlt) (truncf ψ wr hlt) (constant ⟨2, ![M, N]⟩ .f32 0x00000000#32)))
          (broadcastTo ⟨2, ![M, N]⟩ b hb))
        (broadcast ⟨2, ![M, N]⟩ (Scalar.ofBits (F := Ideal) .f32 w))
      = layer (Ideal.ofBits .f32 w) a h wl wr b := by
  funext i
  obtain ⟨p, q, rfl⟩ : ∃ (p : Fin M) (q : Fin N), i = ix2 p q :=
    ⟨⟨(i 0).val, idx2_lt0 i⟩, ⟨(i 1).val, idx2_lt1 i⟩, by funext d; match d with | ⟨0, _⟩ => rfl | ⟨1, _⟩ => rfl⟩
  have e1 : matmul (DotDims.plain M K N) prec (truncf ψ a hlt) (truncf ψ wl hlt) (constant ⟨2, ![M, N]⟩ .f32 0x00000000#32) (ix2 p q)
      = ∑ k : Fin K, a (ix2 p k) * wl (ix2 k q) :=
    congrFun (matmul_zero_plain prec (truncf ψ a hlt) (truncf ψ wl hlt)) (ix2 p q)
  have e2 : matmul (DotDims.plain M K N) prec (truncf ψ h hlt) (truncf ψ wr hlt) (constant ⟨2, ![M, N]⟩ .f32 0x00000000#32) (ix2 p q)
      = ∑ k : Fin K, h (ix2 p k) * wr (ix2 k q) :=
    congrFun (matmul_zero_plain prec (truncf ψ h hlt) (truncf ψ wr hlt)) (ix2 p q)
  rw [layer_apply, maximumf_apply, addf_apply, addf_apply, broadcast_apply, bcastRows_apply b hb p q, e1, e2]
  rfl

/-- The host's value: the first product, the twice-broadcast bias vector added to it, the second product added
    last, the maximum with a broadcast scalar constant. The bias row is the vector reshaped to one row. -/
theorem host_layer {M K N : ℕ} (prec : Option ContractPrecision) (sched : HostSchedule) (w : BitVec 32)
    (a h : FVec Ideal ⟨2, ![M, K]⟩ .f32) (wl wr : FVec Ideal ⟨2, ![K, N]⟩ .f32) (x : FVec Ideal ⟨1, ![N]⟩ .f32)
    (h0 : (⟨0, ![]⟩ : Shape).BroadcastsInDim ⟨2, ![M, N]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    maximumf
        (addf
          (addf (FloatOps.dotGeneral (DotDims.plain M K N) prec sched a wl)
            (broadcastInDim ⟨2, ![M, N]⟩ ![0, 1] h2 (broadcastInDim ⟨2, ![1, N]⟩ ![1] h1 x)))
          (FloatOps.dotGeneral (DotDims.plain M K N) prec sched h wr))
        (broadcastInDim ⟨2, ![M, N]⟩ ![] h0 (constant (F := Ideal) ⟨0, ![]⟩ .f32 w))
      = layer (Ideal.ofBits .f32 w) a h wl wr (shapeCast ⟨2, ![1, N]⟩ x hc) := by
  rw [dotGeneral_plain prec sched a wl, dotGeneral_plain prec sched h wr, addf_bcastRow (rowsTimes a wl) x h1 h2 hc,
    ← layer_eq_biasFirst]
  rfl

end Cert.SageLayer

end
-- ==== Proof.RefLayers.lean ====
/-
  The reference's three layers, each as the dense layer `Cert.SageLayer.layer` of its inputs.

  Layer `n` of the reference takes the aggregated features `agg` (the host's gather, accumulating scatter and scaling of
  the previous layer's output) and the previous layer's output `h` itself, and computes
  `max ((agg · Wl + b) + h · Wr, 0)`: the first product, the bias vector broadcast to every row and added to it, the
  second product added last, the maximum with zero. By `Cert.SageLayer.host_layer` that is the dense layer of `agg`,
  `h`, the two weight matrices and the bias vector reshaped to one row, floored at zero (`layer1`, `layer2`, `layer3`).
  The aggregated features are not opened here: they stay the reference's own stage, a function of the edge array and
  of the previous layer's output.
-/
import proofs.«102981_j7361573945898_1_alg».proof.Proof.RefRead
import proofs.«102981_j7361573945898_1_alg».proof.Proof.LibSageDense

noncomputable section

namespace Cert.ReferenceIdeal.Layers

open Cert.ReferenceIdeal Cert.ReferenceIdeal.Gen Cert.ReferenceIdeal.ReadP Idealize.ShloMosaic Idealize.ShloMosaic.TcCoe
open Cert.SageLayer

/-- The floor of every layer: the value of the zero word. -/
abbrev z : EReal := Ideal.ofBits .f32 0x00000000#32

/-- Layer 1: the dense layer of the aggregated input features, the input features, `W1l`, `W1r` and `b1` as one row. -/
theorem layer1 (hc : S128.ShapeCasts S1x128) (x0 : (⟨S100000x3, .f32⟩ : BufTy).Contents (Elt Ideal)) (x1 : (⟨S2x600000, .i32⟩ : BufTy).Contents (Elt Ideal)) (x2 x3 : (⟨S3x128, .f32⟩ : BufTy).Contents (Elt Ideal)) (x4 : (⟨S128, .f32⟩ : BufTy).Contents (Elt Ideal)) :
    val_main_v34 (F := Ideal) x0 x1 x2 x3 x4
      = layer z (val_main_v27 (F := Ideal) x0 x1) x0 x2 x3 (shapeCast S1x128 x4 hc) := by
  unfold val_main_v34 val_main_v33 val_main_v31 val_main_v32 val_main_v28 val_main_v30 val_main_v29 val_main_call1_v0 val_main_call1_cst
  generalize val_main_v27 (F := Ideal) x0 x1 = A
  exact host_layer none .single 0x00000000#32 A x0 x2 x3 x4 bcast_S_S100000x128 bcast_S128_S1x128_1 bcast_S1x128_S100000x128_0_1 hc

/-- Layer 2: the dense layer of the aggregated layer-1 output, the layer-1 output, `W2l`, `W2r` and `b2` as one row. -/
theorem layer2 (hc : S128.ShapeCasts S1x128) (x0 : (⟨S100000x3, .f32⟩ : BufTy).Contents (Elt Ideal)) (x1 : (⟨S2x600000, .i32⟩ : BufTy).Contents (Elt Ideal)) (x2 x3 : (⟨S3x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) :
    val_main_v54 (F := Ideal) x0 x1 x2 x3 x4 x5 x6 x7
      = layer z (val_main_v47 (F := Ideal) x0 x1 x2 x3 x4) (val_main_v34 (F := Ideal) x0 x1 x2 x3 x4) x5 x6 (shapeCast S1x128 x7 hc) := by
  unfold val_main_v54 val_main_v53 val_main_v51 val_main_v52 val_main_v48 val_main_v50 val_main_v49 val_main_call2_v0 val_main_call2_cst
  generalize val_main_v47 (F := Ideal) x0 x1 x2 x3 x4 = A
  generalize val_main_v34 (F := Ideal) x0 x1 x2 x3 x4 = H
  exact host_layer none .single 0x00000000#32 A H x5 x6 x7 bcast_S_S100000x128 bcast_S128_S1x128_1 bcast_S1x128_S100000x128_0_1 hc

/-- Layer 3: the dense layer of the aggregated layer-2 output, the layer-2 output, `W3l`, `W3r` and `b3` as one row. -/
theorem layer3 (hc : S128.ShapeCasts S1x128) (x0 : (⟨S100000x3, .f32⟩ : BufTy).Contents (Elt Ideal)) (x1 : (⟨S2x600000, .i32⟩ : BufTy).Contents (Elt Ideal)) (x2 x3 : (⟨S3x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) :
    val_main_v74 (F := Ideal) x0 x1 x2 x3 x4 x5 x6 x7 x8 x9 x10
      = layer z (val_main_v67 (F := Ideal) x0 x1 x2 x3 x4 x5 x6 x7) (val_main_v54 (F := Ideal) x0 x1 x2 x3 x4 x5 x6 x7) x8 x9 (shapeCast S1x128 x10 hc) := by
  unfold val_main_v74 val_main_v73 val_main_v71 val_main_v72 val_main_v68 val_main_v70 val_main_v69 val_main_call3_v0 val_main_call3_cst
  generalize val_main_v67 (F := Ideal) x0 x1 x2 x3 x4 x5 x6 x7 = A
  generalize val_main_v54 (F := Ideal) x0 x1 x2 x3 x4 x5 x6 x7 = H
  exact host_layer none .single 0x00000000#32 A H x8 x9 x10 bcast_S_S100000x128 bcast_S128_S1x128_1 bcast_S1x128_S100000x128_0_1 hc

end Cert.ReferenceIdeal.Layers

end
-- ==== Proof.Region0.lean ====
/-
  What pallas_call 0 leaves in its output array, as one function of the arrays it is entered with.

  The grid has 25 points. At point `t` the body reads rows `4000 t … 4000 t + 3999` of the aggregated features and of
  the nodes' own features (two `[4000, 3]` blocks), the two whole `[3, 128]` weight matrices and the whole `[1, 128]`
  bias row, and stores one `[4000, 128]` block: the dense layer `Cert.SageLayer.layer` of those blocks, floored at zero
  (`payload_eq`). An entry of the layer depends on its own row of the two feature arrays only, so that block is rows
  `4000 t … 4000 t + 3999` of the layer of the WHOLE arrays (`flushed_eq`). The 25 blocks tile the `[100000, 128]` output
  (`covered`: row `r` lies in the block of point `r / 4000`), so after the last point the output array is the layer of
  the whole arrays (`final`).
-/
import proofs.«102981_j7361573945898_1_alg».proof.Proof.Gen.KernelIdeal.Frame
import proofs.«102981_j7361573945898_1_alg».proof.Proof.LibSageDense
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.SageLayer

/-- The floor of the layer: the value of the zero word. -/
abbrev z : EReal := Ideal.ofBits .f32 0x00000000#32

theorem hz : (![0, 0] : Fin 2 → Nat) = fun _ => 0 := funext fun a => by fin_cases a <;> rfl

/-- The body's stored value is the dense layer of its five loaded blocks. -/
theorem payload_eq (x0 x1 : Vec Ideal S4000x3 .f32) (x2 x3 : Vec Ideal S3x128 .f32) (x4 : Vec Ideal S1x128 .f32) :
    k0_pay1 (F := Ideal) x0 x1 x2 x3 x4 = layer z x0 x1 x2 x3 x4 := by
  unfold k0_pay1
  simp only [shapeCast_self]
  exact body_layer none 0x00000000#32 x0 x1 x2 x3 x4 bitsLt_bf16_f32 broadcasts_S1x128_S4000x128

/-- The printed index maps, decided over the grid: the two feature windows and the output window are at block row `t`,
    block column 0; the weight and bias windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- The layer of the whole arrays the region is entered with. -/
abbrev G (c : Dev nD) : S100000x128.Idx → EReal :=
  layer z (V c main_v27) (V c main_arg0) (V c main_arg2) (V c main_arg3) (V c main_v28)

/-- WHAT POINT `t` WRITES BACK is block `t` of the layer of the whole arrays. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S4000x3) hz, View.ld_unit_zero (S := S3x128) hz, View.ld_unit_zero (S := S1x128) hz]
  rw [payload_eq]
  obtain ⟨e00, e01, e10, e11, e20, e21, e30, e31, e40, e41, e50, e51⟩ := idx_facts t
  funext j
  show layer z (iblk0 V c 0 t) (iblk0 V c 1 t) (iblk0 V c 2 t) (iblk0 V c 3 t) (iblk0 V c 4 t) j
      = G V c (((cfg0.win 5).blk t).view.emb j)
  -- the weight and bias windows sit at block (0, 0) and span their whole arrays
  have w2 : (iblk0 V c 2 t : S3x128.Idx → EReal) = V c main_arg2 := by
    funext y
    show V c main_arg2 (((cfg0.win 2).blk t).view.emb y) = V c main_arg2 y
    refine congrArg _ (funext fun a => Fin.ext ?_)
    match a with
    | ⟨0, _⟩ => show win0_2.index t (0 : Fin 2) * 3 + 1 * (y 0).val = (y 0).val; omega
    | ⟨1, _⟩ => show win0_2.index t (1 : Fin 2) * 128 + 1 * (y 1).val = (y 1).val; omega
  have w3 : (iblk0 V c 3 t : S3x128.Idx → EReal) = V c main_arg3 := by
    funext y
    show V c main_arg3 (((cfg0.win 3).blk t).view.emb y) = V c main_arg3 y
    refine congrArg _ (funext fun a => Fin.ext ?_)
    match a with
    | ⟨0, _⟩ => show win0_3.index t (0 : Fin 2) * 3 + 1 * (y 0).val = (y 0).val; omega
    | ⟨1, _⟩ => show win0_3.index t (1 : Fin 2) * 128 + 1 * (y 1).val = (y 1).val; omega
  have w4 : (iblk0 V c 4 t : S1x128.Idx → EReal) = V c main_v28 := by
    funext y
    show V c main_v28 (((cfg0.win 4).blk t).view.emb y) = V c main_v28 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  rw [w2, w3, w4]
  -- the two feature windows sit at block row `t`: rows `4000 t + y` of their arrays
  have ha : ∀ (y : Fin 4000) (k : Fin 3) (hlt : 4000 * t.val + y.val < 100000),
      (iblk0 V c 0 t : S4000x3.Idx → EReal) (ix2 y k) = V c main_v27 (ix2 (⟨4000 * t.val + y.val, hlt⟩ : Fin 100000) k) := by
    intro y k hlt
    show V c main_v27 (((cfg0.win 0).blk t).view.emb (ix2 y k)) = _
    refine congrArg _ (funext fun a => Fin.ext ?_)
    match a with
    | ⟨0, _⟩ => show win0_0.index t (0 : Fin 2) * 4000 + 1 * y.val = 4000 * t.val + y.val; omega
    | ⟨1, _⟩ => show win0_0.index t (1 : Fin 2) * 3 + 1 * k.val = k.val; omega
  have hh : ∀ (y : Fin 4000) (k : Fin 3) (hlt : 4000 * t.val + y.val < 100000),
      (iblk0 V c 1 t : S4000x3.Idx → EReal) (ix2 y k) = V c main_arg0 (ix2 (⟨4000 * t.val + y.val, hlt⟩ : Fin 100000) k) := by
    intro y k hlt
    show V c main_arg0 (((cfg0.win 1).blk t).view.emb (ix2 y k)) = _
    refine congrArg _ (funext fun a => Fin.ext ?_)
    match a with
    | ⟨0, _⟩ => show win0_1.index t (0 : Fin 2) * 4000 + 1 * y.val = 4000 * t.val + y.val; omega
    | ⟨1, _⟩ => show win0_1.index t (1 : Fin 2) * 3 + 1 * k.val = k.val; omega
  refine layer_rows z (4000 * t.val) (V c main_v27) (V c main_arg0) (iblk0 V c 0 t) (iblk0 V c 1 t) (V c main_arg2) (V c main_arg3) (V c main_v28)
    ha hh j (((cfg0.win 5).blk t).view.emb j) ?_ ?_
  · show win0_5.index t (0 : Fin 2) * 4000 + 1 * (j 0).val = 4000 * t.val + (j 0).val; omega
  · show win0_5.index t (1 : Fin 2) * 128 + 1 * (j 1).val = (j 1).val; omega

/-- An index of the output array is in point `t`'s block iff each coordinate is in the block's range on its axis. -/
theorem mem_blk (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v29).slice (win0_5.rect t)).set ↔ _
  rw [View.set_slice_whole, Rect.mem_set_unit]
  exact Iff.rfl

/-- Every index of the output array is in the block of the point its row selects: row `r` in the block of `r / 4000`. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  obtain ⟨-, -, -, -, -, -, -, -, -, -, e50, e51⟩ := idx_facts t
  have ht : t.val = (i 0).val / 4000 := rfl
  refine ⟨t, flush0_5 t, ?_⟩
  rw [mem_blk]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- THE OUTPUT ARRAY after the last point: the dense layer of the whole arrays the region is entered with. -/
theorem final (c : Dev nD) : (dat0 (F := Ideal) V c).arrAt 5 cfg0.N = G V c :=
  (dat0 V c).arrAt_eq_of_cover 5 (G V c) (fun t _ => flushed_eq V c t) covered

end Cert.KernelIdeal.Region0

end
-- ==== Proof.Region1.lean ====
/-
  What pallas_call 1 leaves in its output array, as one function of the arrays it is entered with.

  The grid has 25 points. At point `t` the body reads rows `4000 t … 4000 t + 3999` of the aggregated features and of
  the nodes' own features (two `[4000, 128]` blocks), the two whole `[128, 128]` weight matrices and the whole `[1, 128]`
  bias row, and stores one `[4000, 128]` block: the dense layer `Cert.SageLayer.layer` of those blocks, floored at zero
  (`payload_eq`). An entry of the layer depends on its own row of the two feature arrays only, so that block is rows
  `4000 t … 4000 t + 3999` of the layer of the WHOLE arrays (`flushed_eq`). The 25 blocks tile the `[100000, 128]` output
  (`covered`: row `r` lies in the block of point `r / 4000`), so after the last point the output array is the layer of
  the whole arrays (`final`).
-/
import proofs.«102981_j7361573945898_1_alg».proof.Proof.Gen.KernelIdeal.Frame
import proofs.«102981_j7361573945898_1_alg».proof.Proof.LibSageDense
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.SageLayer

/-- The floor of the layer: the value of the zero word. -/
abbrev z : EReal := Ideal.ofBits .f32 0x00000000#32

theorem hz : (![0, 0] : Fin 2 → Nat) = fun _ => 0 := funext fun a => by fin_cases a <;> rfl

/-- The body's stored value is the dense layer of its five loaded blocks. -/
theorem payload_eq (x0 x1 : Vec Ideal S4000x128 .f32) (x2 x3 : Vec Ideal S128x128 .f32) (x4 : Vec Ideal S1x128 .f32) :
    k1_pay1 (F := Ideal) x0 x1 x2 x3 x4 = layer z x0 x1 x2 x3 x4 := by
  unfold k1_pay1
  simp only [shapeCast_self]
  exact body_layer none 0x00000000#32 x0 x1 x2 x3 x4 bitsLt_bf16_f32 broadcasts_S1x128_S4000x128

/-- The printed index maps, decided over the grid: the two feature windows and the output window are at block row `t`,
    block column 0; the weight and bias windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- The layer of the whole arrays the region is entered with. -/
abbrev G (c : Dev nD) : S100000x128.Idx → EReal :=
  layer z (V c main_v41) (V c main_v29) (V c main_arg5) (V c main_arg6) (V c main_v42)

/-- WHAT POINT `t` WRITES BACK is block `t` of the layer of the whole arrays. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S4000x128) hz, View.ld_unit_zero (S := S128x128) hz, View.ld_unit_zero (S := S1x128) hz]
  rw [payload_eq]
  obtain ⟨e00, e01, e10, e11, e20, e21, e30, e31, e40, e41, e50, e51⟩ := idx_facts t
  funext j
  show layer z (iblk1 V c 0 t) (iblk1 V c 1 t) (iblk1 V c 2 t) (iblk1 V c 3 t) (iblk1 V c 4 t) j
      = G V c (((cfg1.win 5).blk t).view.emb j)
  -- the weight and bias windows sit at block (0, 0) and span their whole arrays
  have w2 : (iblk1 V c 2 t : S128x128.Idx → EReal) = V c main_arg5 := by
    funext y
    show V c main_arg5 (((cfg1.win 2).blk t).view.emb y) = V c main_arg5 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  have w3 : (iblk1 V c 3 t : S128x128.Idx → EReal) = V c main_arg6 := by
    funext y
    show V c main_arg6 (((cfg1.win 3).blk t).view.emb y) = V c main_arg6 y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  have w4 : (iblk1 V c 4 t : S1x128.Idx → EReal) = V c main_v42 := by
    funext y
    show V c main_v42 (((cfg1.win 4).blk t).view.emb y) = V c main_v42 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega
  rw [w2, w3, w4]
  -- the two feature windows sit at block row `t`: rows `4000 t + y` of their arrays
  have ha : ∀ (y : Fin 4000) (k : Fin 128) (hlt : 4000 * t.val + y.val < 100000),
      (iblk1 V c 0 t : S4000x128.Idx → EReal) (ix2 y k) = V c main_v41 (ix2 (⟨4000 * t.val + y.val, hlt⟩ : Fin 100000) k) := by
    intro y k hlt
    show V c main_v41 (((cfg1.win 0).blk t).view.emb (ix2 y k)) = _
    refine congrArg _ (funext fun a => Fin.ext ?_)
    match a with
    | ⟨0, _⟩ => show win1_0.index t (0 : Fin 2) * 4000 + 1 * y.val = 4000 * t.val + y.val; omega
    | ⟨1, _⟩ => show win1_0.index t (1 : Fin 2) * 128 + 1 * k.val = k.val; omega
  have hh : ∀ (y : Fin 4000) (k : Fin 128) (hlt : 4000 * t.val + y.val < 100000),
      (iblk1 V c 1 t : S4000x128.Idx → EReal) (ix2 y k) = V c main_v29 (ix2 (⟨4000 * t.val + y.val, hlt⟩ : Fin 100000) k) := by
    intro y k hlt
    show V c main_v29 (((cfg1.win 1).blk t).view.emb (ix2 y k)) = _
    refine congrArg _ (funext fun a => Fin.ext ?_)
    match a with
    | ⟨0, _⟩ => show win1_1.index t (0 : Fin 2) * 4000 + 1 * y.val = 4000 * t.val + y.val; omega
    | ⟨1, _⟩ => show win1_1.index t (1 : Fin 2) * 128 + 1 * k.val = k.val; omega
  refine layer_rows z (4000 * t.val) (V c main_v41) (V c main_v29) (iblk1 V c 0 t) (iblk1 V c 1 t) (V c main_arg5) (V c main_arg6) (V c main_v42)
    ha hh j (((cfg1.win 5).blk t).view.emb j) ?_ ?_
  · show win1_5.index t (0 : Fin 2) * 4000 + 1 * (j 0).val = 4000 * t.val + (j 0).val; omega
  · show win1_5.index t (1 : Fin 2) * 128 + 1 * (j 1).val = (j 1).val; omega

/-- An index of the output array is in point `t`'s block iff each coordinate is in the block's range on its axis. -/
theorem mem_blk (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v43).slice (win1_5.rect t)).set ↔ _
  rw [View.set_slice_whole, Rect.mem_set_unit]
  exact Iff.rfl

/-- Every index of the output array is in the block of the point its row selects: row `r` in the block of `r / 4000`. -/
theorem covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 25 := N_1
  let t : Fin cfg1.N := ⟨(i 0).val / 4000, by rw [hN]; omega⟩
  obtain ⟨-, -, -, -, -, -, -, -, -, -, e50, e51⟩ := idx_facts t
  have ht : t.val = (i 0).val / 4000 := rfl
  refine ⟨t, flush1_5 t, ?_⟩
  rw [mem_blk]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 128 ≤ (i 1).val ∧ (i 1).val < win1_5.index t (1 : Fin 2) * 128 + 128; omega

/-- THE OUTPUT ARRAY after the last point: the dense layer of the whole arrays the region is entered with. -/
theorem final (c : Dev nD) : (dat1 (F := Ideal) V c).arrAt 5 cfg1.N = G V c :=
  (dat1 V c).arrAt_eq_of_cover 5 (G V c) (fun t _ => flushed_eq V c t) covered

end Cert.KernelIdeal.Region1

end
-- ==== Proof.Region2.lean ====
/-
  What pallas_call 2 leaves in its output array, as one function of the arrays it is entered with.

  The grid has 25 points. At point `t` the body reads rows `4000 t … 4000 t + 3999` of the aggregated features and of
  the nodes' own features (two `[4000, 128]` blocks), the two whole `[128, 128]` weight matrices and the whole `[1, 128]`
  bias row, and stores one `[4000, 128]` block: the dense layer `Cert.SageLayer.layer` of those blocks, floored at zero
  (`payload_eq`). An entry of the layer depends on its own row of the two feature arrays only, so that block is rows
  `4000 t … 4000 t + 3999` of the layer of the WHOLE arrays (`flushed_eq`). The 25 blocks tile the `[100000, 128]` output
  (`covered`: row `r` lies in the block of point `r / 4000`), so after the last point the output array is the layer of
  the whole arrays (`final`).
-/
import proofs.«102981_j7361573945898_1_alg».proof.Proof.Gen.KernelIdeal.Frame
import proofs.«102981_j7361573945898_1_alg».proof.Proof.LibSageDense
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.SageLayer

/-- The floor of the layer: the value of the zero word. -/
abbrev z : EReal := Ideal.ofBits .f32 0x00000000#32

theorem hz : (![0, 0] : Fin 2 → Nat) = fun _ => 0 := funext fun a => by fin_cases a <;> rfl

/-- The body's stored value is the dense layer of its five loaded blocks. -/
theorem payload_eq (x0 x1 : Vec Ideal S4000x128 .f32) (x2 x3 : Vec Ideal S128x128 .f32) (x4 : Vec Ideal S1x128 .f32) :
    k2_pay1 (F := Ideal) x0 x1 x2 x3 x4 = layer z x0 x1 x2 x3 x4 := by
  unfold k2_pay1
  simp only [shapeCast_self]
  exact body_layer none 0x00000000#32 x0 x1 x2 x3 x4 bitsLt_bf16_f32 broadcasts_S1x128_S4000x128

/-- The printed index maps, decided over the grid: the two feature windows and the output window are at block row `t`,
    block column 0; the weight and bias windows at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- The layer of the whole arrays the region is entered with. -/
abbrev G (c : Dev nD) : S100000x128.Idx → EReal :=
  layer z (V c main_v55) (V c main_v43) (V c main_arg8) (V c main_arg9) (V c main_v56)

/-- WHAT POINT `t` WRITES BACK is block `t` of the layer of the whole arrays. -/
theorem flushed_eq (c : Dev nD) (t : Fin cfg2.N) :
    (dat2 (F := Ideal) V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S4000x128) hz, View.ld_unit_zero (S := S128x128) hz, View.ld_unit_zero (S := S1x128) hz]
  rw [payload_eq]
  obtain ⟨e00, e01, e10, e11, e20, e21, e30, e31, e40, e41, e50, e51⟩ := idx_facts t
  funext j
  show layer z (iblk2 V c 0 t) (iblk2 V c 1 t) (iblk2 V c 2 t) (iblk2 V c 3 t) (iblk2 V c 4 t) j
      = G V c (((cfg2.win 5).blk t).view.emb j)
  -- the weight and bias windows sit at block (0, 0) and span their whole arrays
  have w2 : (iblk2 V c 2 t : S128x128.Idx → EReal) = V c main_arg8 := by
    funext y
    show V c main_arg8 (((cfg2.win 2).blk t).view.emb y) = V c main_arg8 y
    refine congrArg _ (funext fun a => Fin.ext ?_)
    match a with
    | ⟨0, _⟩ => show win2_2.index t (0 : Fin 2) * 128 + 1 * (y 0).val = (y 0).val; omega
    | ⟨1, _⟩ => show win2_2.index t (1 : Fin 2) * 128 + 1 * (y 1).val = (y 1).val; omega
  have w3 : (iblk2 V c 3 t : S128x128.Idx → EReal) = V c main_arg9 := by
    funext y
    show V c main_arg9 (((cfg2.win 3).blk t).view.emb y) = V c main_arg9 y
    refine congrArg _ (funext fun a => Fin.ext ?_)
    match a with
    | ⟨0, _⟩ => show win2_3.index t (0 : Fin 2) * 128 + 1 * (y 0).val = (y 0).val; omega
    | ⟨1, _⟩ => show win2_3.index t (1 : Fin 2) * 128 + 1 * (y 1).val = (y 1).val; omega
  have w4 : (iblk2 V c 4 t : S1x128.Idx → EReal) = V c main_v56 := by
    funext y
    show V c main_v56 (((cfg2.win 4).blk t).view.emb y) = V c main_v56 y
    refine congrArg _ (funext fun a => Fin.ext ?_)
    match a with
    | ⟨0, _⟩ => show win2_4.index t (0 : Fin 2) * 1 + 1 * (y 0).val = (y 0).val; omega
    | ⟨1, _⟩ => show win2_4.index t (1 : Fin 2) * 128 + 1 * (y 1).val = (y 1).val; omega
  rw [w2, w3, w4]
  -- the two feature windows sit at block row `t`: rows `4000 t + y` of their arrays
  have ha : ∀ (y : Fin 4000) (k : Fin 128) (hlt : 4000 * t.val + y.val < 100000),
      (iblk2 V c 0 t : S4000x128.Idx → EReal) (ix2 y k) = V c main_v55 (ix2 (⟨4000 * t.val + y.val, hlt⟩ : Fin 100000) k) := by
    intro y k hlt
    show V c main_v55 (((cfg2.win 0).blk t).view.emb (ix2 y k)) = _
    refine congrArg _ (funext fun a => Fin.ext ?_)
    match a with
    | ⟨0, _⟩ => show win2_0.index t (0 : Fin 2) * 4000 + 1 * y.val = 4000 * t.val + y.val; omega
    | ⟨1, _⟩ => show win2_0.index t (1 : Fin 2) * 128 + 1 * k.val = k.val; omega
  have hh : ∀ (y : Fin 4000) (k : Fin 128) (hlt : 4000 * t.val + y.val < 100000),
      (iblk2 V c 1 t : S4000x128.Idx → EReal) (ix2 y k) = V c main_v43 (ix2 (⟨4000 * t.val + y.val, hlt⟩ : Fin 100000) k) := by
    intro y k hlt
    show V c main_v43 (((cfg2.win 1).blk t).view.emb (ix2 y k)) = _
    refine congrArg _ (funext fun a => Fin.ext ?_)
    match a with
    | ⟨0, _⟩ => show win2_1.index t (0 : Fin 2) * 4000 + 1 * y.val = 4000 * t.val + y.val; omega
    | ⟨1, _⟩ => show win2_1.index t (1 : Fin 2) * 128 + 1 * k.val = k.val; omega
  refine layer_rows z (4000 * t.val) (V c main_v55) (V c main_v43) (iblk2 V c 0 t) (iblk2 V c 1 t) (V c main_arg8) (V c main_arg9) (V c main_v56)
    ha hh j (((cfg2.win 5).blk t).view.emb j) ?_ ?_
  · show win2_5.index t (0 : Fin 2) * 4000 + 1 * (j 0).val = 4000 * t.val + (j 0).val; omega
  · show win2_5.index t (1 : Fin 2) * 128 + 1 * (j 1).val = (j 1).val; omega

/-- An index of the output array is in point `t`'s block iff each coordinate is in the block's range on its axis. -/
theorem mem_blk (t : Fin cfg2.N) (i : S100000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v57).slice (win2_5.rect t)).set ↔ _
  rw [View.set_slice_whole, Rect.mem_set_unit]
  exact Iff.rfl

/-- Every index of the output array is in the block of the point its row selects: row `r` in the block of `r / 4000`. -/
theorem covered (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 25 := N_2
  let t : Fin cfg2.N := ⟨(i 0).val / 4000, by rw [hN]; omega⟩
  obtain ⟨-, -, -, -, -, -, -, -, -, -, e50, e51⟩ := idx_facts t
  have ht : t.val = (i 0).val / 4000 := rfl
  refine ⟨t, flush2_5 t, ?_⟩
  rw [mem_blk]
  intro a
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 128 ≤ (i 1).val ∧ (i 1).val < win2_5.index t (1 : Fin 2) * 128 + 128; omega

/-- THE OUTPUT ARRAY after the last point: the dense layer of the whole arrays the region is entered with. -/
theorem final (c : Dev nD) : (dat2 (F := Ideal) V c).arrAt 5 cfg2.N = G V c :=
  (dat2 V c).arrAt_eq_of_cover 5 (G V c) (fun t _ => flushed_eq V c t) covered

end Cert.KernelIdeal.Region2

end
-- ==== Proof.LibColumnForms.lean ====
/-
  A vector laid out as a column, two ways.

  A length-`a` vector becomes an `[a, 1]` column either by a reshape or by a broadcast along axis 0. Both put the
  vector's entry `p` at `(p, 0)`: the reshape because the row-major position of `(p, u)` in `[a, 1]` is `p * 1 + u = p`,
  the broadcast because axis 0 of the column is the vector's own axis. So the two columns are one array
  (`shapeCast_col_eq_bcast`).
-/
import Idealize.ShloMosaic.Lib.Pipeline.Value
import Idealize.ShloMosaic.Lib.ValueIdx

noncomputable section

namespace Cert.LibColumnForms

open Idealize.ShloMosaic Idealize.ShloMosaic.ValueIdx

/-- A vector reshaped to a column reads, at `(p, u)`, the vector at `p`. -/
theorem shapeCast_col_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) := by
  refine shapeCast_apply x h (ix2 p u) (ix1 p) ?_
  rw [Shape.rowMajor_val_one, Shape.rowMajor_val_two]
  show p.val = p.val * 1 + u.val
  have := u.isLt
  omega

/-- A vector broadcast along axis 0 to a column reads, at `(p, u)`, the vector at `p`. -/
theorem bcast_col_apply {α : Type} {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) (fun d => ?_)
  match d with
  | ⟨0, _⟩ =>
    show p.val = if a = 1 then 0 else p.val
    split
    · have := p.isLt; omega
    · rfl

/-- The reshaped column and the broadcast column are one array. -/
theorem shapeCast_col_eq_bcast {α : Type} {a : ℕ} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext i
  obtain ⟨p, u, rfl⟩ : ∃ (p : Fin a) (u : Fin 1), i = ix2 p u :=
    ⟨⟨(i 0).val, idx2_lt0 i⟩, ⟨(i 1).val, idx2_lt1 i⟩, by funext d; match d with | ⟨0, _⟩ => rfl | ⟨1, _⟩ => rfl⟩
  rw [shapeCast_col_apply, bcast_col_apply]

end Cert.LibColumnForms

end
-- ==== Proof.KernelValue.lean ====
/-
  The kernel's three layers equal the reference's, array by array.

  Both programs compute each layer's aggregated features on the host by the same three operations (rows gathered by
  source node, accumulated by destination node into zeros, scaled by the inverse-degree column), applied to the same
  index vectors and to the previous layer's output; they differ only in laying the inverse degrees out as a column by
  a reshape (kernel) or a broadcast (reference), which is one array (`col_eq…`). So once the previous layer's outputs
  agree, the aggregated features agree (`W3_v27`, `W5_v41`, `W7_v55`), without opening the gather or the scatter.
  Each pallas_call then leaves the dense layer of its entry arrays (the region modules' `final`), and the reference's
  layer is the same dense layer of the same arrays (`Cert.ReferenceIdeal.Layers.layer…`): the layer outputs agree
  (`W4_v29`, `W6_v43`, `W8_v57`). The last of these is the result.
-/
import proofs.«102981_j7361573945898_1_alg».proof.Proof.KernelCarry
import proofs.«102981_j7361573945898_1_alg».proof.Proof.RefLayers
import proofs.«102981_j7361573945898_1_alg».proof.Proof.Region0
import proofs.«102981_j7361573945898_1_alg».proof.Proof.Region1
import proofs.«102981_j7361573945898_1_alg».proof.Proof.Region2
import proofs.«102981_j7361573945898_1_alg».proof.Proof.LibColumnForms

set_option maxRecDepth 16384

noncomputable section

namespace Cert.KernelIdeal.Layers

open Cert.KernelIdeal Cert.KernelIdeal.Gen Cert.KernelIdeal.Carry
open Idealize.ShloMosaic Idealize.ShloMosaic.TcCoe Idealize.ShloMosaic.StableHlo Idealize.SL.Sem
open Cert.SageLayer

variable (m : (ℓ : Loc nD τ sig) → Buf (Elt Ideal) ℓ) (ρ : Dev nD → PrngReg) (c : Dev nD)

/-- The inverse-degree column: the kernel's reshape of the inverse degrees is the reference's broadcast of them (its stage 25). -/
theorem col_eq25 : shapeCast S100000x1 (Cert.ReferenceIdeal.ReadP.val_main_v14 (F := Ideal) (m ((c : Thread nD τ).loc main_arg1))) shapeCasts_S100000_S100000x1 = Cert.ReferenceIdeal.ReadP.val_main_v25 (F := Ideal) (m ((c : Thread nD τ).loc main_arg1)) := by
  unfold Cert.ReferenceIdeal.ReadP.val_main_v25
  exact Cert.LibColumnForms.shapeCast_col_eq_bcast _ _ _

/-- The inverse-degree column: the kernel's reshape of the inverse degrees is the reference's broadcast of them (its stage 45). -/
theorem col_eq45 : shapeCast S100000x1 (Cert.ReferenceIdeal.ReadP.val_main_v14 (F := Ideal) (m ((c : Thread nD τ).loc main_arg1))) shapeCasts_S100000_S100000x1 = Cert.ReferenceIdeal.ReadP.val_main_v45 (F := Ideal) (m ((c : Thread nD τ).loc main_arg1)) := by
  unfold Cert.ReferenceIdeal.ReadP.val_main_v45
  exact Cert.LibColumnForms.shapeCast_col_eq_bcast _ _ _

/-- The inverse-degree column: the kernel's reshape of the inverse degrees is the reference's broadcast of them (its stage 65). -/
theorem col_eq65 : shapeCast S100000x1 (Cert.ReferenceIdeal.ReadP.val_main_v14 (F := Ideal) (m ((c : Thread nD τ).loc main_arg1))) shapeCasts_S100000_S100000x1 = Cert.ReferenceIdeal.ReadP.val_main_v65 (F := Ideal) (m ((c : Thread nD τ).loc main_arg1)) := by
  unfold Cert.ReferenceIdeal.ReadP.val_main_v65
  exact Cert.LibColumnForms.shapeCast_col_eq_bcast _ _ _

/-! ## Layer 1 -/

set_option maxHeartbeats 8000000 in
/-- The aggregated input features are the reference's: the same gather, accumulating scatter and scaling of the same
    arrays, the inverse-degree column a reshape where the reference broadcasts. The stretch of host operations is cut
    after its first operation, the reshape, so that the column is one named array for the operations that follow. -/
theorem W3_v27 : W3 m ρ c (Proc.devRef .tc main_v27) = Cert.ReferenceIdeal.ReadP.val_main_v27 (F := Ideal) (m ((c : Thread nD τ).loc main_arg0)) (m ((c : Thread nD τ).loc main_arg1)) := by
  have e1 := W2_v1 m ρ c
  have e3 := W2_v3 m ρ c
  have e14 := W2_v14 m ρ c
  have e0 := W2_arg0 m ρ c
  show StableHlo.after hostOps0_2 (W2 m ρ c) (Proc.devRef .tc main_v27) = _
  generalize W2 m ρ c = X at e1 e3 e14 e0 ⊢
  have split : StableHlo.after hostOps0_2 X = StableHlo.after (List.drop 1 hostOps0_2) (StableHlo.after (List.take 1 hostOps0_2) X) := rfl
  rw [split]
  have f15 : StableHlo.after (List.take 1 hostOps0_2) X (Proc.devRef .tc main_v15)
      = shapeCast S100000x1 (Cert.ReferenceIdeal.ReadP.val_main_v14 (F := Ideal) (m ((c : Thread nD τ).loc main_arg1))) shapeCasts_S100000_S100000x1 := by
    simp only [hostOps0_2, List.take_succ_cons, List.take_zero]
    after_results
    rw [e14]
    rfl
  have f1 : StableHlo.after (List.take 1 hostOps0_2) X (Proc.devRef .tc main_v1) = Cert.ReferenceIdeal.ReadP.val_main_v1 (F := Ideal) (m ((c : Thread nD τ).loc main_arg1)) := by
    simp only [hostOps0_2, List.take_succ_cons, List.take_zero]
    after_results
    exact e1
  have f3 : StableHlo.after (List.take 1 hostOps0_2) X (Proc.devRef .tc main_v3) = Cert.ReferenceIdeal.ReadP.val_main_v3 (F := Ideal) (m ((c : Thread nD τ).loc main_arg1)) := by
    simp only [hostOps0_2, List.take_succ_cons, List.take_zero]
    after_results
    exact e3
  have f0 : StableHlo.after (List.take 1 hostOps0_2) X (Proc.devRef .tc main_arg0) = (m ((c : Thread nD τ).loc main_arg0)) := by
    simp only [hostOps0_2, List.take_succ_cons, List.take_zero]
    after_results
    exact e0
  generalize StableHlo.after (List.take 1 hostOps0_2) X = Y at f15 f1 f3 f0 ⊢
  simp only [hostOps0_2, List.drop_succ_cons, List.drop_zero]
  after_results_simp
  rw [f1, f3, f15, f0, col_eq25]
  rfl

/-- The first bias vector as one row. -/
theorem W3_v28 : W3 m ρ c (Proc.devRef .tc main_v28) = shapeCast S1x128 (m ((c : Thread nD τ).loc main_arg4)) shapeCasts_S128_S1x128 := by
  show StableHlo.after hostOps0_2 (StableHlo.after hostOps0_1 (StableHlo.after hostOps0 (W0 m ρ c))) (Proc.devRef .tc main_v28) = _
  after_results
  rfl

/-- pallas_call 0 leaves the reference's first layer. -/
theorem W4_v29 : W4 m ρ c (Proc.devRef .tc main_v29) = Cert.ReferenceIdeal.ReadP.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine ((W4_arr m ρ c 5).trans (Cert.KernelIdeal.Region0.final (V3 m ρ) c)).trans ?_
  show layer Cert.KernelIdeal.Region0.z (W3 m ρ c (Proc.devRef .tc main_v27)) (W3 m ρ c (Proc.devRef .tc main_arg0)) (W3 m ρ c (Proc.devRef .tc main_arg2))
      (W3 m ρ c (Proc.devRef .tc main_arg3)) (W3 m ρ c (Proc.devRef .tc main_v28)) = _
  rw [W3_v27 m ρ c, W3_arg0 m ρ c, W3_arg2 m ρ c, W3_arg3 m ρ c, W3_v28 m ρ c]
  exact (Cert.ReferenceIdeal.Layers.layer1 shapeCasts_S128_S1x128 _ _ _ _ _).symm

/-! ## Layer 2 -/

set_option maxHeartbeats 8000000 in
/-- The aggregated layer-1 output is the reference's. -/
theorem W5_v41 : W5 m ρ c (Proc.devRef .tc main_v41) = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have e1 := W4_v1 m ρ c
  have e3 := W4_v3 m ρ c
  have e15 := W4_v15 m ρ c
  have e29 := W4_v29 m ρ c
  show StableHlo.after hostOps1 (W4 m ρ c) (Proc.devRef .tc main_v41) = _
  generalize W4 m ρ c = X at e1 e3 e15 e29 ⊢
  after_results_simp
  rw [e1, e3, e15, e29, col_eq45]
  rfl

theorem W5_v29 : W5 m ρ c (Proc.devRef .tc main_v29) = Cert.ReferenceIdeal.ReadP.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W4 m ρ c) (Proc.devRef .tc main_v29) = _
  after_results
  exact W4_v29 m ρ c

/-- The second bias vector as one row. -/
theorem W5_v42 : W5 m ρ c (Proc.devRef .tc main_v42) = shapeCast S1x128 (m ((c : Thread nD τ).loc main_arg7)) shapeCasts_S128_S1x128 := by
  show StableHlo.after hostOps1 (W4 m ρ c) (Proc.devRef .tc main_v42) = _
  after_results
  rw [W4_arg7 m ρ c]
  rfl

/-- pallas_call 1 leaves the reference's second layer. -/
theorem W6_v43 : W6 m ρ c (Proc.devRef .tc main_v43) = Cert.ReferenceIdeal.ReadP.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W6_arr m ρ c 5).trans (Cert.KernelIdeal.Region1.final (V5 m ρ) c)).trans ?_
  show layer Cert.KernelIdeal.Region1.z (W5 m ρ c (Proc.devRef .tc main_v41)) (W5 m ρ c (Proc.devRef .tc main_v29)) (W5 m ρ c (Proc.devRef .tc main_arg5))
      (W5 m ρ c (Proc.devRef .tc main_arg6)) (W5 m ρ c (Proc.devRef .tc main_v42)) = _
  rw [W5_v41 m ρ c, W5_v29 m ρ c, W5_arg5 m ρ c, W5_arg6 m ρ c, W5_v42 m ρ c]
  exact (Cert.ReferenceIdeal.Layers.layer2 shapeCasts_S128_S1x128 _ _ _ _ _ _ _ _).symm

/-! ## Layer 3 -/

set_option maxHeartbeats 8000000 in
/-- The aggregated layer-2 output is the reference's. -/
theorem W7_v55 : W7 m ρ c (Proc.devRef .tc main_v55) = Cert.ReferenceIdeal.ReadP.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e1 := W6_v1 m ρ c
  have e3 := W6_v3 m ρ c
  have e15 := W6_v15 m ρ c
  have e43 := W6_v43 m ρ c
  show StableHlo.after hostOps2 (W6 m ρ c) (Proc.devRef .tc main_v55) = _
  generalize W6 m ρ c = X at e1 e3 e15 e43 ⊢
  after_results_simp
  rw [e1, e3, e15, e43, col_eq65]
  rfl

theorem W7_v43 : W7 m ρ c (Proc.devRef .tc main_v43) = Cert.ReferenceIdeal.ReadP.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W6 m ρ c) (Proc.devRef .tc main_v43) = _
  after_results
  exact W6_v43 m ρ c

/-- The third bias vector as one row. -/
theorem W7_v56 : W7 m ρ c (Proc.devRef .tc main_v56) = shapeCast S1x128 (m ((c : Thread nD τ).loc main_arg10)) shapeCasts_S128_S1x128 := by
  show StableHlo.after hostOps2 (W6 m ρ c) (Proc.devRef .tc main_v56) = _
  after_results
  rw [W6_arg10 m ρ c]
  rfl

/-- pallas_call 2 leaves the reference's third layer: THE RESULT. -/
theorem W8_v57 : W8 m ρ c (Proc.devRef .tc main_v57) = Cert.ReferenceIdeal.ReadP.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W8_arr m ρ c 5).trans (Cert.KernelIdeal.Region2.final (V7 m ρ) c)).trans ?_
  show layer Cert.KernelIdeal.Region2.z (W7 m ρ c (Proc.devRef .tc main_v55)) (W7 m ρ c (Proc.devRef .tc main_v43)) (W7 m ρ c (Proc.devRef .tc main_arg8))
      (W7 m ρ c (Proc.devRef .tc main_arg9)) (W7 m ρ c (Proc.devRef .tc main_v56)) = _
  rw [W7_v55 m ρ c, W7_v43 m ρ c, W7_arg8 m ρ c, W7_arg9 m ρ c, W7_v56 m ρ c]
  exact (Cert.ReferenceIdeal.Layers.layer3 shapeCasts_S128_S1x128 _ _ _ _ _ _ _ _ _ _ _).symm

end Cert.KernelIdeal.Layers

end
-- ==== Proof.lean ====
/-
  Three layers of a mean-aggregating graph network: a tiled matrix-unit kernel against its array-language reference.

  Each layer takes node features `h` (`[100000, K]`, `K = 3` then `128`) and an edge list, forms on the host the
  aggregated features `agg` (rows of `h` gathered by source node, accumulated by destination node, scaled by the inverse
  in-degree), and outputs

      max (agg · Wl + h · Wr + b, 0).

  The kernel computes the dense part on the matrix unit in 25 row blocks of 4000 nodes, adding the two products first
  and the bias row last; the reference computes it whole, adding the bias to the first product and the second
  product last. On the extended reals the sum of three terms does not depend on the grouping (commutativity and
  associativity hold at infinite values too), the rounding of the kernel's operands to a narrower format is the
  identity, and a block of rows of a product depends on those rows of the left operand only: so each pallas_call
  leaves exactly the reference's layer (`Cert.SageLayer`, the three `Region` modules). The host operations that build
  `agg` are the same in the two programs and are never opened: equal previous-layer outputs give equal aggregated
  features (`Cert.KernelIdeal.Layers`). By induction over the three layers the two results are one array, for every
  input; no input needs to be finite.

  The claims: the two kernel programs' frames are the generated ones; the reference's frame is its run with the
  result dropped; the idealization rewrote no operation, so `preserves` asks nothing; `algebraic` puts the two runs
  side by side at the common result `val_main_v74` of the launch arguments.
-/
import proofs.«102981_j7361573945898_1_alg».proof.Defs
import proofs.«102981_j7361573945898_1_alg».proof.Proof.Gen.Kernel
import proofs.«102981_j7361573945898_1_alg».proof.Proof.Gen.Kernel.Skeleton
import proofs.«102981_j7361573945898_1_alg».proof.Proof.Gen.Kernel.Launch
import proofs.«102981_j7361573945898_1_alg».proof.Proof.Gen.Kernel.Points
import proofs.«102981_j7361573945898_1_alg».proof.Proof.Gen.Kernel.Frame
import proofs.«102981_j7361573945898_1_alg».proof.Proof.Gen.KernelIdeal
import proofs.«102981_j7361573945898_1_alg».proof.Proof.Gen.KernelIdeal.Skeleton
import proofs.«102981_j7361573945898_1_alg».proof.Proof.Gen.KernelIdeal.Launch
import proofs.«102981_j7361573945898_1_alg».proof.Proof.Gen.KernelIdeal.Points
import proofs.«102981_j7361573945898_1_alg».proof.Proof.Gen.KernelIdeal.Frame
import proofs.«102981_j7361573945898_1_alg».proof.Proof.Gen.ReferenceIdeal
import proofs.«102981_j7361573945898_1_alg».proof.Proof.Gen.Pre_finite_inputs
import proofs.«102981_j7361573945898_1_alg».proof.Proof.RefRun
import proofs.«102981_j7361573945898_1_alg».proof.Proof.RefRead
import proofs.«102981_j7361573945898_1_alg».proof.Proof.KernelRun
import proofs.«102981_j7361573945898_1_alg».proof.Proof.KernelValue
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation of the kernel. -/
theorem preserves : Cert.preserves_Kernel_KernelIdeal := trivial

/-- From memories agreeing on the arguments both programs end with the reference's third layer of those arguments. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.Layers.W8_v57 m ρ c), (h c).2⟩)
      (Cert.KernelIdeal.RunValue.run_result (F := Ideal) m ρ), ?_⟩
  refine (θ_run Cert.ReferenceIdeal.defs _ _).mono (fun r h c => ⟨(h c).1.trans ?_, (h c).2⟩)
    (Cert.ReferenceIdeal.ValueP.run (F := Ideal) m' ρ')
  obtain ⟨h0, h1, h2, h3, h4, h5, h6, h7, h8, h9, h10⟩ := hagree c
  rw [Cert.ReferenceIdeal.ReadP.val_main_v74_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
